-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096x4096 .f32) (main_arg3 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4096x4096 : Shape := ⟨2, ![4096, 4096]⟩
abbrev S128x4096 : Shape := ⟨2, ![128, 4096]⟩
abbrev S128 : Shape := ⟨1, ![128]⟩
abbrev S128x1 : Shape := ⟨2, ![128, 1]⟩

abbrev nBuf : Space → Nat
  | .hbm => 10
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .bf16⟩
  | .hbm, ⟨5, _⟩ => ⟨S4096x4096, .bf16⟩
  | .hbm, ⟨6, _⟩ => ⟨S4096x4096, .bf16⟩
  | .hbm, ⟨7, _⟩ => ⟨S4096x4096, .bf16⟩
  | .hbm, ⟨8, _⟩ => ⟨S4096x4096, .f32⟩
  | .hbm, ⟨9, _⟩ => ⟨S4096x4096, .f32⟩
  | .local _ .vmem, ⟨0, _⟩ => ⟨S128x4096, .bf16⟩
  | .local _ .vmem, ⟨1, _⟩ => ⟨S128x4096, .bf16⟩
  | .local _ .vmem, ⟨2, _⟩ => ⟨S4096x4096, .bf16⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S4096x4096, .bf16⟩
  | .local _ .vmem, ⟨8, _⟩ => ⟨S128x4096, .f32⟩
  | .local _ .vmem, ⟨9, _⟩ => ⟨S128x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  transposes_S4096x4096_S4096x4096_1_0 : S4096x4096.Transposes [1, 0] S4096x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  reduces_S128x4096_S128 : S128x4096.Reduces [1] S128
  shapeCasts_S128_S128x1 : S128.ShapeCasts S128x1
  broadcasts_S128x1_S128x4096 : S128x1.Broadcasts S128x4096
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .bf16 = 32 ∨ (Rect.block (s := S4096x4096) S128x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .f32 = 32 ∨ (Rect.block (s := S4096x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S4096x4096.size a
  hwx1_2 : ∀ i : grid1.Coords, EltTy.bits .f32 = 32 ∨ (Rect.block (s := S4096x4096) S128x4096.size (cc1_transform_2 i) (hinb1_2 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x4096, .f32⟩
  | .hbm, ⟨26, _⟩ => ⟨S4096x4096, .f32⟩
  | .hbm, ⟨27, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KernelRun.lean ====
/-
  The idealized kernel's run with its two result arrays named, and what each region finds in its operands.

  @main is a stretch of host operations (three roundings to bf16 and one transposition) followed by two kernel
  regions. The library's theorem for a run of several regions ends with every unscoped buffer at the contents the
  last boundary states; reading the two result buffers there, beside the four arguments, gives the run with both
  results named. Walking back through the boundaries: the second result is what the second region's write-backs
  leave in its output array; the first result is the second region's first input array, which that region only
  reads, hence what the first region's write-backs left in its output array.

  At the first region's entry its left operand is the rounded second argument and its right operand the transposed
  rounded third argument; at the second region's entry the value operand is the rounded fourth argument, untouched
  by the first region.
-/
import proofs.«105991_j5059471475343_2_alg».proof.Proof.Gen.KernelIdeal.Frame
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the four arguments as launched. -/
theorem run : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       h c _ (mem_uc main_v5 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-! ## The results, walked back to the regions' output arrays -/

/-- The second result is what the second region's write-backs leave. -/
theorem second_result (c : Dev nD) :
    W3 m ρ c (Proc.devRef .tc main_v5) = (dat1 (V2 m ρ) c).arrAt 2 cfg1.N :=
  W3_arr m ρ c 2

/-- The first result is the second region's first input array, only read there, which the first region's
    write-backs left. -/
theorem first_result (c : Dev nD) :
    W3 m ρ c (Proc.devRef .tc main_v4) = (dat0 (V1 m ρ) c).arrAt 2 cfg0.N :=
  (W3_arr m ρ c 0).trans (((dat1 (V2 m ρ) c).arrAt_in 0 rfl _).trans ((A_eq1 (V2 m ρ) c 0).trans (W2_arr m ρ c 2)))

/-! ## What the regions find in their operands -/

/-- The first region's left operand: the second argument, rounded. -/
theorem entry_left (c : Dev nD) :
    V1 m ρ c main_v0 = truncf .bf16 (m ((c : Thread nD τ).loc main_arg1)) bitsLt_bf16_f32 := by
  show StableHlo.after hostOps0 (W0 m ρ c) (Proc.devRef .tc main_v0) = _
  after_results

/-- The first region's right operand: the third argument, rounded and transposed. -/
theorem entry_right (c : Dev nD) :
    V1 m ρ c main_v3 = transpose S4096x4096 [1, 0] (truncf .bf16 (m ((c : Thread nD τ).loc main_arg2)) bitsLt_bf16_f32)
      transposes_S4096x4096_S4096x4096_1_0 := by
  show StableHlo.after hostOps0 (W0 m ρ c) (Proc.devRef .tc main_v3) = _
  after_results

/-- The second region's value operand: the fourth argument, rounded; the first region does not touch it. -/
theorem entry_value (c : Dev nD) :
    V2 m ρ c main_v2 = truncf .bf16 (m ((c : Thread nD τ).loc main_arg3)) bitsLt_bf16_f32 := by
  refine (W2_of_ne m ρ c main_v2 (by decide)).trans ?_
  show StableHlo.after hostOps0 (W0 m ρ c) (Proc.devRef .tc main_v2) = _
  after_results

/-- The second region's weights operand: what the first region's write-backs left. -/
theorem entry_weights (c : Dev nD) :
    V2 m ρ c main_v4 = (dat0 (V1 m ρ) c).arrAt 2 cfg0.N :=
  W2_arr m ρ c 2

end Cert.KernelIdeal.Named

end
-- ==== Proof.AttentionRows.lean ====
/-
  Attention weights and their mixing, one row at a time, on the extended reals.

  Both programs compute, for the square matrices Wq, Wk, Wv of extent 4096,
      attn   = softmax over each row of (Wq · Wkᵀ) scaled by 1/64,
      sftmax = attn · Wv.
  A row of attn depends on ONE row `a` of the left matrix and on the whole right matrix `B` (the transposed Wk,
  entry (k, q)): the scaled scores `score a B q = (∑ k, a k · B (k, q)) · (1/64)`, their maximum `top` (the fold of
  `max` from `⊥`), the weights `exp (score − top)`, their sum `mass`, and the quotient `soft`. A row of sftmax is the
  row of weights times the value matrix (`mix`). The whole arrays are these rows laid side by side.

  Two scalar facts join the two spellings of the scale: the f32 pattern 0x3C800000 denotes 1/64, and dividing by the
  square root of the pattern 0x45800000 (which denotes 4096, whose real square root is 64) is, on EVERY extended
  real, multiplying by 1/64. A maximum taken once more against `⊥` changes nothing.
-/
import Idealize.ShloMosaic.PureOps.Ideal
import Idealize.ShloMosaic.Lib.ValueIdx

noncomputable section

namespace AttnRows

open Idealize.ShloMosaic Idealize.ShloMosaic.ValueIdx

/-- The arrays' index type: pairs (row, column) below 4096. -/
abbrev Sq : Shape := ⟨2, ![4096, 4096]⟩

/-! ## The scalars -/

/-- The f32 pattern of 2⁻⁶ denotes the real 1/64. -/
theorem ofBits_inv64 : Ideal.ofBits .f32 0x3C800000#32 = ((1 / 64 : ℝ) : EReal) := by
  simp [Ideal.ofBits, Ideal.ieee, -EReal.coe_mul]; norm_num

/-- The f32 pattern of 2¹² denotes the real 4096. -/
theorem ofBits_4096 : Ideal.ofBits .f32 0x45800000#32 = ((4096 : ℝ) : EReal) := by
  simp [Ideal.ofBits, Ideal.ieee, -EReal.coe_mul]; norm_num

/-- The square root of 4096 is 64. -/
theorem sqrt_4096 : Ideal.sqrt ((4096 : ℝ) : EReal) = ((64 : ℝ) : EReal) := by
  rw [Ideal.sqrt_coe, if_neg (by norm_num)]
  have h : Real.sqrt 4096 = 64 := by
    rw [show (4096 : ℝ) = 64 ^ 2 by norm_num]
    exact Real.sqrt_sq (by norm_num)
  rw [h]

/-- Dividing by the square root of 4096 is multiplying by 1/64, at every extended real (the infinities included). -/
theorem div_sqrt_4096 (x : EReal) :
    Ideal.div x (Ideal.sqrt (Ideal.ofBits .f32 0x45800000#32)) = x * ((1 / 64 : ℝ) : EReal) := by
  rw [ofBits_4096, sqrt_4096]
  exact Ideal.div_coe (by norm_num) x

/-! ## One row -/

/-- The scaled score of the row `a` against column `q` of `B`. -/
def score (a : Fin 4096 → EReal) (B : Sq.Idx → EReal) (q : Fin 4096) : EReal :=
  (∑ k : Fin 4096, a k * B (ix2 k q)) * ((1 / 64 : ℝ) : EReal)

/-- The largest scaled score of the row (the fold of `max` from `⊥`). -/
def top (a : Fin 4096 → EReal) (B : Sq.Idx → EReal) : EReal :=
  (Finset.univ : Finset (Fin 4096)).fold max ⊥ (fun q => score a B q)

/-- The unnormalised weight of column `q`. -/
def weight (a : Fin 4096 → EReal) (B : Sq.Idx → EReal) (q : Fin 4096) : EReal :=
  Ideal.exp (score a B q - top a B)

/-- The row's normaliser. -/
def mass (a : Fin 4096 → EReal) (B : Sq.Idx → EReal) : EReal := ∑ q : Fin 4096, weight a B q

/-- The attention weight of column `q`. -/
def soft (a : Fin 4096 → EReal) (B : Sq.Idx → EReal) (q : Fin 4096) : EReal :=
  Ideal.div (weight a B q) (mass a B)

/-- A row of weights `w` times the value matrix, at column `q`. -/
def mix (w : Fin 4096 → EReal) (V : Sq.Idx → EReal) (q : Fin 4096) : EReal :=
  ∑ k : Fin 4096, w k * V (ix2 k q)

/-! ## The whole arrays -/

/-- Row `p` of a matrix. -/
abbrev row (A : Sq.Idx → EReal) (p : Fin 4096) : Fin 4096 → EReal := fun k => A (ix2 p k)

/-- The transposed matrix: entry (k, q) is the matrix's entry (q, k). -/
def flip (A : Sq.Idx → EReal) : Sq.Idx → EReal := fun j => A (ix2 (j 1) (j 0))

theorem flip_ix2 (A : Sq.Idx → EReal) (k q : Fin 4096) : flip A (ix2 k q) = A (ix2 q k) := rfl

/-- The attention weights: row `p` is `soft` of row `p` of the left matrix against `B`. -/
def attn (A B : Sq.Idx → EReal) : Sq.Idx → EReal := fun i => soft (row A (i 0)) B (i 1)

theorem attn_ix2 (A B : Sq.Idx → EReal) (p q : Fin 4096) : attn A B (ix2 p q) = soft (row A p) B q := rfl

/-- The mixed values: row `p` is row `p` of the weights times the value matrix. -/
def mixed (W V : Sq.Idx → EReal) : Sq.Idx → EReal := fun i => mix (row W (i 0)) V (i 1)

theorem mixed_ix2 (W V : Sq.Idx → EReal) (p q : Fin 4096) : mixed W V (ix2 p q) = mix (row W p) V q := rfl

/-- A row of attention weights computed from a row `a` and a matrix `B'` that ARE row `i 0` of `A` and the matrix `B`,
    at the column `i 1`, is the array `attn A B` at `i`. -/
theorem soft_eq_attn (A B : Sq.Idx → EReal) (a : Fin 4096 → EReal) (B' : Sq.Idx → EReal) (i : Sq.Idx) (q : Fin 4096)
    (ha : ∀ k : Fin 4096, a k = A (ix2 (i 0) k)) (hB : B' = B) (hq : (i 1).val = q.val) :
    soft a B' q = attn A B i := by
  subst hB
  have e : a = row A (i 0) := funext ha
  have eq : i 1 = q := Fin.ext hq
  subst e
  unfold attn
  rw [eq]

/-- The same for the mixed values. -/
theorem mix_eq_mixed (W V : Sq.Idx → EReal) (w : Fin 4096 → EReal) (V' : Sq.Idx → EReal) (i : Sq.Idx) (q : Fin 4096)
    (hw : ∀ k : Fin 4096, w k = W (ix2 (i 0) k)) (hV : V' = V) (hq : (i 1).val = q.val) :
    mix w V' q = mixed W V i := by
  subst hV
  have e : w = row W (i 0) := funext hw
  have eq : i 1 = q := Fin.ext hq
  subst e
  unfold mixed
  rw [eq]

end AttnRows

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«105991_j5059471475343_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.TileBodies.lean ====
/-
  What the two kernel bodies compute on one tile, read at an entry.

  The first body takes a tile `x0` of 128 rows of the left matrix and the whole right matrix `x1`, multiplies them
  into a zero accumulator, scales by the splat of 2⁻⁶, and normalises each row: the row maximum (accumulated from
  -∞) is recast to a column and broadcast back, subtracted, exponentiated; the row sum of the exponentials is
  recast and broadcast the same way and divides them. At entry (p, q) that is `soft` of row `p` of the tile
  against `x1` at column `q`.

  The second body multiplies a tile of 128 rows of weights (rounded to bf16, the identity on the extended reals) by
  the whole value matrix into a zero accumulator: at entry (p, q), `mix` of row `p` of the tile at column `q`.
-/
import proofs.«105991_j5059471475343_2_alg».proof.Proof.Gen.KernelIdeal.Skeleton
import proofs.«105991_j5059471475343_2_alg».proof.Proof.AttentionRows
import proofs.«105991_j5059471475343_2_alg».proof.Proof.LibRowOps
import proofs.«105991_j5059471475343_2_alg».proof.Proof.LibDotRecord
import Idealize.ShloMosaic.Lib.Pipeline.Value

noncomputable section

namespace Cert.KernelIdeal.Tile

open Idealize.ShloMosaic Idealize.ShloMosaic.ValueIdx Cert.KernelIdeal Cert.KernelIdeal.Gen AttnRows

/-! ## The first body -/

/-- The tile's scaled scores: the product into zero times the splat of 2⁻⁶. -/
def scores (x0 : FVec Ideal S128x4096 .bf16) (x1 : FVec Ideal S4096x4096 .bf16) : FVec Ideal S128x4096 .f32 :=
  mulf (matmul dot_S128x4096_S4096x4096_S128x4096_1_0_0_1_n_n none
      (shapeCast S128x4096 x0 shapeCasts_S128x4096_S128x4096) (shapeCast S4096x4096 x1 shapeCasts_S4096x4096_S4096x4096)
      (constant S128x4096 .f32 0x00000000#32))
    (broadcast S128x4096 (Scalar.ofBits .f32 0x3C800000#32))

/-- At entry (p, q) the scaled score is `score` of the tile's row `p` against column `q`. -/
theorem scores_apply (x0 : FVec Ideal S128x4096 .bf16) (x1 : FVec Ideal S4096x4096 .bf16) (p : Fin 128) (q : Fin 4096) :
    scores x0 x1 (ix2 p q) = score (fun k => x0 (ix2 p k)) x1 q := by
  unfold scores score
  rw [shapeCast_self, shapeCast_self]
  show FloatOps.matmul dot_S128x4096_S4096x4096_S128x4096_1_0_0_1_n_n none x0 x1 (constant S128x4096 .f32 0x00000000#32) (ix2 p q)
      * Ideal.ofBits .f32 0x3C800000#32 = _
  rw [DotRecord.matmul_zero_apply dot_S128x4096_S4096x4096_S128x4096_1_0_0_1_n_n rfl rfl rfl rfl rfl rfl x0 x1 none p q,
    ofBits_inv64]

/-- The row normalisation of a tile of scores: maximum, shift, exponential, sum, quotient. -/
def normalise (s : FVec Ideal S128x4096 .f32) : FVec Ideal S128x4096 .f32 :=
  have v7 : FVec Ideal S128 .f32 := multiReduction .maximumf [1] S128 s 0xFF800000#32 reduces_S128x4096_S128 (.inl rfl) rfl
  have v8 : FVec Ideal S128x1 .f32 := shapeCast S128x1 v7 shapeCasts_S128_S128x1
  have v9 : FVec Ideal S128x4096 .f32 := broadcastTo S128x4096 v8 broadcasts_S128x1_S128x4096
  have v10 : FVec Ideal S128x4096 .f32 := subf s v9
  have v11 : FVec Ideal S128x4096 .f32 := exp v10
  have v12 : FVec Ideal S128 .f32 := multiReduction .add [1] S128 v11 0x00000000#32 reduces_S128x4096_S128 (.inl rfl) rfl
  have v13 : FVec Ideal S128x1 .f32 := shapeCast S128x1 v12 shapeCasts_S128_S128x1
  have v14 : FVec Ideal S128x4096 .f32 := broadcastTo S128x4096 v13 broadcasts_S128x1_S128x4096
  divf v11 v14

set_option maxRecDepth 65536 in
/-- The first body's stored value is the normalisation of the tile's scaled scores. -/
theorem pay_attn_eq (x0 : Vec Ideal S128x4096 .bf16) (x1 : Vec Ideal S4096x4096 .bf16) :
    k0_pay1 (F := Ideal) x0 x1 = normalise (scores x0 x1) := rfl

/-- The row maximum, recast to a column and broadcast back, at entry (p, q): the fold of `max` from `⊥` over row `p`. -/
theorem rowTop_apply (s : FVec Ideal S128x4096 .f32) (p : Fin 128) (q : Fin 4096) :
    broadcastTo S128x4096 (shapeCast S128x1 (multiReduction .maximumf [1] S128 s 0xFF800000#32 reduces_S128x4096_S128 (.inl rfl) rfl)
        shapeCasts_S128_S128x1) broadcasts_S128x1_S128x4096 (ix2 p q)
      = (Finset.univ : Finset (Fin 4096)).fold max ⊥ (fun k => s (ix2 p k)) := by
  refine (Gcn.Lib.broadcastTo_a1_ab_apply _ broadcasts_S128x1_S128x4096 p q).trans ?_
  refine (Gcn.Lib.shapeCast_a_a1_apply _ shapeCasts_S128_S128x1 p 0).trans ?_
  exact Gcn.Lib.rowMax_apply s reduces_S128x4096_S128 (.inl rfl) rfl p

/-- The row sum, recast to a column and broadcast back, at entry (p, q): the sum over row `p`. -/
theorem rowMass_apply (e : FVec Ideal S128x4096 .f32) (p : Fin 128) (q : Fin 4096) :
    broadcastTo S128x4096 (shapeCast S128x1 (multiReduction .add [1] S128 e 0x00000000#32 reduces_S128x4096_S128 (.inl rfl) rfl)
        shapeCasts_S128_S128x1) broadcasts_S128x1_S128x4096 (ix2 p q)
      = ∑ k : Fin 4096, e (ix2 p k) := by
  refine (Gcn.Lib.broadcastTo_a1_ab_apply _ broadcasts_S128x1_S128x4096 p q).trans ?_
  refine (Gcn.Lib.shapeCast_a_a1_apply _ shapeCasts_S128_S128x1 p 0).trans ?_
  exact Gcn.Lib.rowSum_apply e reduces_S128x4096_S128 (.inl rfl) rfl p

/-- The normalisation at entry (p, q), in terms of the scores of row `p`. -/
theorem normalise_apply (s : FVec Ideal S128x4096 .f32) (p : Fin 128) (q : Fin 4096) :
    normalise s (ix2 p q)
      = Ideal.div (Ideal.exp (s (ix2 p q) - (Finset.univ : Finset (Fin 4096)).fold max ⊥ (fun k => s (ix2 p k))))
          (∑ j : Fin 4096, Ideal.exp (s (ix2 p j) - (Finset.univ : Finset (Fin 4096)).fold max ⊥ (fun k => s (ix2 p k)))) := by
  unfold normalise
  show Ideal.div (Ideal.exp (s (ix2 p q) - _)) _ = _
  rw [rowTop_apply, rowMass_apply]
  refine congrArg (Ideal.div _) (Finset.sum_congr rfl fun j _ => ?_)
  show Ideal.exp (s (ix2 p j) - _) = _
  rw [rowTop_apply]

/-- THE FIRST BODY at entry (p, q): `soft` of the tile's row `p` against the right matrix at column `q`. -/
theorem pay_attn_apply (x0 : Vec Ideal S128x4096 .bf16) (x1 : Vec Ideal S4096x4096 .bf16) (p : Fin 128) (q : Fin 4096) :
    k0_pay1 (F := Ideal) x0 x1 (ix2 p q) = soft (fun k => x0 (ix2 p k)) x1 q := by
  rw [pay_attn_eq, normalise_apply]
  simp only [scores_apply]
  rfl

/-! ## The second body -/

/-- The tile of weights, rounded, times the value matrix into zero. -/
def mixTile (x0 : FVec Ideal S128x4096 .f32) (x1 : FVec Ideal S4096x4096 .bf16) : FVec Ideal S128x4096 .f32 :=
  matmul dot_S128x4096_S4096x4096_S128x4096_1_0_0_1_n_n none
    (truncf .bf16 (shapeCast S128x4096 x0 shapeCasts_S128x4096_S128x4096) bitsLt_bf16_f32)
    (shapeCast S4096x4096 x1 shapeCasts_S4096x4096_S4096x4096) (constant S128x4096 .f32 0x00000000#32)

set_option maxRecDepth 65536 in
/-- The second body's stored value is that product. -/
theorem pay_mix_eq (x0 : Vec Ideal S128x4096 .f32) (x1 : Vec Ideal S4096x4096 .bf16) :
    k1_pay1 (F := Ideal) x0 x1 = mixTile x0 x1 := rfl

/-- At entry (p, q) the product is the tile's row `p` against column `q` of the value matrix. -/
theorem mixTile_apply (x0 : FVec Ideal S128x4096 .f32) (x1 : FVec Ideal S4096x4096 .bf16) (p : Fin 128) (q : Fin 4096) :
    mixTile x0 x1 (ix2 p q) = mix (fun k => x0 (ix2 p k)) x1 q := by
  unfold mixTile mix
  rw [shapeCast_self, shapeCast_self]
  exact DotRecord.matmul_zero_apply dot_S128x4096_S4096x4096_S128x4096_1_0_0_1_n_n rfl rfl rfl rfl rfl rfl
    (truncf .bf16 x0 bitsLt_bf16_f32) x1 none p q

/-- THE SECOND BODY at entry (p, q): the tile's row `p` of weights times the value matrix at column `q`. -/
theorem pay_mix_apply (x0 : Vec Ideal S128x4096 .f32) (x1 : Vec Ideal S4096x4096 .bf16) (p : Fin 128) (q : Fin 4096) :
    k1_pay1 (F := Ideal) x0 x1 (ix2 p q) = mix (fun k => x0 (ix2 p k)) x1 q := by
  rw [pay_mix_eq]
  exact mixTile_apply x0 x1 p q

end Cert.KernelIdeal.Tile

end
-- ==== Proof.TilesToArrays.lean ====
/-
  From tiles to whole arrays, for each of the two regions, at any contents the region is entered with.

  Each region walks 32 grid points; point `t` stages rows 128·t … 128·t+127 of its left operand and of its output,
  and the right operand whole (one block, index 0). What point `t` writes back is therefore rows 128·t … of ONE
  whole-array function of the operands as the region finds them — `attn` for the first region, `mixed` for the
  second — because a row of either depends only on the same row of the left operand. The 32 blocks cover every
  row (row r lies in block r / 128), so the output array ends as that function everywhere.
-/
import proofs.«105991_j5059471475343_2_alg».proof.Proof.Gen.KernelIdeal.Frame
import proofs.«105991_j5059471475343_2_alg».proof.Proof.TileBodies
import Idealize.ShloMosaic.Lib.Pipeline.Value

set_option maxRecDepth 16384

noncomputable section

namespace Cert.KernelIdeal.Arrays

open Cert.KernelIdeal Cert.KernelIdeal.Gen AttnRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! ## The first region -/

/-- The first region's index maps over its 32 points: the left operand's and the output's row tiles sit at the
    point's number, the right operand is one block. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The right operand's block at any point is the whole array. -/
theorem right0 (c : Dev nD) (t : Fin cfg0.N) : iblk0 V c 1 t = V c main_v3 := by
  obtain ⟨-, -, e2, e3, -, -⟩ := index0 t
  funext y
  show V c main_v3 (((cfg0.win 1).blk t).view.emb y) = V c main_v3 y
  refine congrArg (V c main_v3) (funext fun a => Fin.ext ?_)
  match a with
  | ⟨0, _⟩ => show win0_1.index t (0 : Fin 2) * 4096 + 1 * (y 0).val = (y 0).val; omega
  | ⟨1, _⟩ => show win0_1.index t (1 : Fin 2) * 4096 + 1 * (y 1).val = (y 1).val; omega

/-- WHAT POINT `t` WRITES BACK is block `t` of the attention weights of the operands as the region finds them. -/
theorem flushed0 (c : Dev nD) (t : Fin cfg0.N) :
    (dat0 V c).flushed 2 t = ((cfg0.win 2).blk t).view.read (Elt Ideal) (attn (V c main_v0) (V c main_v3)) := by
  show (cfg0.win 2).cut (grid0.coords t) ((dat0 V c).after 2 t) = _
  rw [after0_2]
  unfold out0_2
  rw [View.canon_unit_zero origin]
  simp only [View.ld_unit_zero (S := S128x4096) origin, View.ld_unit_zero (S := S4096x4096) origin]
  obtain ⟨e0, e1, -, -, e4, e5⟩ := index0 t
  funext j
  obtain ⟨p, q, rfl⟩ : ∃ (p : Fin 128) (q : Fin 4096), j = ix2 p q := ⟨j 0, j 1, eq_ix2 j⟩
  show k0_pay1 (iblk0 V c 0 t) (iblk0 V c 1 t) (ix2 p q)
    = attn (V c main_v0) (V c main_v3) (((cfg0.win 2).blk t).view.emb (ix2 p q))
  refine (Tile.pay_attn_apply (iblk0 V c 0 t) (iblk0 V c 1 t) p q).trans ?_
  refine soft_eq_attn (V c main_v0) (V c main_v3) _ _ _ q (fun k => ?_) (right0 V c t) ?_
  · show V c main_v0 (((cfg0.win 0).blk t).view.emb (ix2 p k)) = V c main_v0 (ix2 ((((cfg0.win 2).blk t).view.emb (ix2 p q)) 0) k)
    refine congrArg (V c main_v0) (funext fun a => Fin.ext ?_)
    match a with
    | ⟨0, _⟩ => show win0_0.index t (0 : Fin 2) * 128 + 1 * p.val = win0_2.index t (0 : Fin 2) * 128 + 1 * p.val; omega
    | ⟨1, _⟩ => show win0_0.index t (1 : Fin 2) * 4096 + 1 * k.val = k.val; omega
  · show win0_2.index t (1 : Fin 2) * 4096 + 1 * q.val = q.val; omega

/-- An index of the output array is in point `t`'s block iff each coordinate is in the block's range. -/
theorem mem_blk0 (t : Fin cfg0.N) (i : S4096x4096.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v4).slice (win0_2.rect t)).set ↔ _
  rw [View.set_slice_whole, Rect.mem_set_unit]
  exact Iff.rfl

/-- Every index lies in the block of the point its row selects. -/
theorem cover0 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : (i 0).val / 128 < cfg0.N := by rw [show cfg0.N = 32 from N_0]; omega
  obtain ⟨-, -, -, -, e4, e5⟩ := index0 ⟨(i 0).val / 128, hN⟩
  refine ⟨⟨(i 0).val / 128, hN⟩, flush0_2 _, ?_⟩
  rw [mem_blk0]
  intro a
  match a with
  | ⟨0, _⟩ =>
    show win0_2.index ⟨(i 0).val / 128, hN⟩ (0 : Fin 2) * 128 ≤ (i 0).val
      ∧ (i 0).val < win0_2.index ⟨(i 0).val / 128, hN⟩ (0 : Fin 2) * 128 + 128
    rw [e4]; show (i 0).val / 128 * 128 ≤ (i 0).val ∧ (i 0).val < (i 0).val / 128 * 128 + 128; omega
  | ⟨1, _⟩ =>
    show win0_2.index ⟨(i 0).val / 128, hN⟩ (1 : Fin 2) * 4096 ≤ (i 1).val
      ∧ (i 1).val < win0_2.index ⟨(i 0).val / 128, hN⟩ (1 : Fin 2) * 4096 + 4096
    rw [e5]; omega

/-- THE FIRST REGION'S OUTPUT ARRAY after its write-backs: the attention weights of its operands. -/
theorem weights (c : Dev nD) : (dat0 V c).arrAt 2 cfg0.N = attn (V c main_v0) (V c main_v3) :=
  (dat0 V c).arrAt_eq_of_cover 2 _ (fun t _ => flushed0 V c t) cover0

/-! ## The second region -/

/-- The second region's index maps: the same pattern. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The value operand's block at any point is the whole array. -/
theorem right1 (c : Dev nD) (t : Fin cfg1.N) : iblk1 V c 1 t = V c main_v2 := by
  obtain ⟨-, -, e2, e3, -, -⟩ := index1 t
  funext y
  show V c main_v2 (((cfg1.win 1).blk t).view.emb y) = V c main_v2 y
  refine congrArg (V c main_v2) (funext fun a => Fin.ext ?_)
  match a with
  | ⟨0, _⟩ => show win1_1.index t (0 : Fin 2) * 4096 + 1 * (y 0).val = (y 0).val; omega
  | ⟨1, _⟩ => show win1_1.index t (1 : Fin 2) * 4096 + 1 * (y 1).val = (y 1).val; omega

/-- WHAT POINT `t` WRITES BACK is block `t` of the weights times the value matrix, as the region finds them. -/
theorem flushed1 (c : Dev nD) (t : Fin cfg1.N) :
    (dat1 V c).flushed 2 t = ((cfg1.win 2).blk t).view.read (Elt Ideal) (mixed (V c main_v4) (V c main_v2)) := by
  show (cfg1.win 2).cut (grid1.coords t) ((dat1 V c).after 2 t) = _
  rw [after1_2]
  unfold out1_2
  rw [View.canon_unit_zero origin]
  simp only [View.ld_unit_zero (S := S128x4096) origin, View.ld_unit_zero (S := S4096x4096) origin]
  obtain ⟨e0, e1, -, -, e4, e5⟩ := index1 t
  funext j
  obtain ⟨p, q, rfl⟩ : ∃ (p : Fin 128) (q : Fin 4096), j = ix2 p q := ⟨j 0, j 1, eq_ix2 j⟩
  show k1_pay1 (iblk1 V c 0 t) (iblk1 V c 1 t) (ix2 p q)
    = mixed (V c main_v4) (V c main_v2) (((cfg1.win 2).blk t).view.emb (ix2 p q))
  refine (Tile.pay_mix_apply (iblk1 V c 0 t) (iblk1 V c 1 t) p q).trans ?_
  refine mix_eq_mixed (V c main_v4) (V c main_v2) _ _ _ q (fun k => ?_) (right1 V c t) ?_
  · show V c main_v4 (((cfg1.win 0).blk t).view.emb (ix2 p k)) = V c main_v4 (ix2 ((((cfg1.win 2).blk t).view.emb (ix2 p q)) 0) k)
    refine congrArg (V c main_v4) (funext fun a => Fin.ext ?_)
    match a with
    | ⟨0, _⟩ => show win1_0.index t (0 : Fin 2) * 128 + 1 * p.val = win1_2.index t (0 : Fin 2) * 128 + 1 * p.val; omega
    | ⟨1, _⟩ => show win1_0.index t (1 : Fin 2) * 4096 + 1 * k.val = k.val; omega
  · show win1_2.index t (1 : Fin 2) * 4096 + 1 * q.val = q.val; omega

theorem mem_blk1 (t : Fin cfg1.N) (i : S4096x4096.Idx) :
    i ∈ ((cfg1.win 2).blk t).view.set ↔ ∀ a : Fin 2, win1_2.index t a * S128x4096.size a ≤ (i a).val
      ∧ (i a).val < win1_2.index t a * S128x4096.size a + S128x4096.size a := by
  show i ∈ ((View.whole main_v5).slice (win1_2.rect t)).set ↔ _
  rw [View.set_slice_whole, Rect.mem_set_unit]
  exact Iff.rfl

theorem cover1 (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  have hN : (i 0).val / 128 < cfg1.N := by rw [show cfg1.N = 32 from N_1]; omega
  obtain ⟨-, -, -, -, e4, e5⟩ := index1 ⟨(i 0).val / 128, hN⟩
  refine ⟨⟨(i 0).val / 128, hN⟩, flush1_2 _, ?_⟩
  rw [mem_blk1]
  intro a
  match a with
  | ⟨0, _⟩ =>
    show win1_2.index ⟨(i 0).val / 128, hN⟩ (0 : Fin 2) * 128 ≤ (i 0).val
      ∧ (i 0).val < win1_2.index ⟨(i 0).val / 128, hN⟩ (0 : Fin 2) * 128 + 128
    rw [e4]; show (i 0).val / 128 * 128 ≤ (i 0).val ∧ (i 0).val < (i 0).val / 128 * 128 + 128; omega
  | ⟨1, _⟩ =>
    show win1_2.index ⟨(i 0).val / 128, hN⟩ (1 : Fin 2) * 4096 ≤ (i 1).val
      ∧ (i 1).val < win1_2.index ⟨(i 0).val / 128, hN⟩ (1 : Fin 2) * 4096 + 4096
    rw [e5]; omega

/-- THE SECOND REGION'S OUTPUT ARRAY after its write-backs: its weights operand times its value operand. -/
theorem values (c : Dev nD) : (dat1 V c).arrAt 2 cfg1.N = mixed (V c main_v4) (V c main_v2) :=
  (dat1 V c).arrAt_eq_of_cover 2 _ (fun t _ => flushed1 V c t) cover1

end Cert.KernelIdeal.Arrays

end
-- ==== Proof.KernelValues.lean ====
/-
  The idealized kernel's two results as functions of its arguments.

  The first result is what the first region's write-backs leave: the attention weights of that region's operands,
  which are the second argument rounded to bf16 and the third argument rounded and transposed. On the extended
  reals rounding is the identity and the transposition is `flip`. The second result is what the second region's
  write-backs leave: its weights operand — the first result — times its value operand, the fourth argument rounded.
-/
import proofs.«105991_j5059471475343_2_alg».proof.Proof.KernelRun
import proofs.«105991_j5059471475343_2_alg».proof.Proof.TilesToArrays

set_option maxRecDepth 16384

noncomputable section

namespace Cert.KernelIdeal.Values

open Cert.KernelIdeal Cert.KernelIdeal.Gen AttnRows
open Idealize.ShloMosaic Idealize.ShloMosaic.TcCoe Idealize.ShloMosaic.ValueIdx Idealize.SL.Sem

variable (m : (ℓ : Loc nD τ sig) → Buf (Elt Ideal) ℓ) (ρ : Dev nD → PrngReg)

/-- The host's transposition of a square matrix reads entry (k, q) at (q, k). -/
theorem transposed (x : S4096x4096.Idx → EReal) :
    transpose S4096x4096 [1, 0] x transposes_S4096x4096_S4096x4096_1_0 = flip x := by
  funext j
  exact transpose_apply [1, 0] x transposes_S4096x4096_S4096x4096_1_0 j (ix2 (j 1) (j 0)) (fun b => match b with
    | ⟨0, _⟩ => rfl
    | ⟨1, _⟩ => rfl)

/-- Rounding to bf16 is the identity on the extended reals. -/
theorem rounded (x : FVec Ideal S4096x4096 .f32) :
    (truncf .bf16 x bitsLt_bf16_f32 : S4096x4096.Idx → EReal) = x := rfl

/-- The first region's output: the attention weights of the second argument against the transposed third. -/
theorem first (c : Dev nD) :
    W3 m ρ c (Proc.devRef .tc main_v4)
      = attn (m ((c : Thread nD τ).loc main_arg1)) (flip (m ((c : Thread nD τ).loc main_arg2))) := by
  refine (Named.first_result m ρ c).trans ((Arrays.weights (V1 m ρ) c).trans ?_)
  rw [Named.entry_left m ρ c, Named.entry_right m ρ c, transposed, rounded, rounded]

/-- The second region's output: those weights times the fourth argument. -/
theorem second (c : Dev nD) :
    W3 m ρ c (Proc.devRef .tc main_v5)
      = mixed (attn (m ((c : Thread nD τ).loc main_arg1)) (flip (m ((c : Thread nD τ).loc main_arg2))))
          (m ((c : Thread nD τ).loc main_arg3)) := by
  refine (Named.second_result m ρ c).trans ((Arrays.values (V2 m ρ) c).trans ?_)
  rw [Named.entry_weights m ρ c, Arrays.weights (V1 m ρ) c, Named.entry_value m ρ c,
    Named.entry_left m ρ c, Named.entry_right m ρ c, transposed, rounded, rounded, rounded]

/-- Every weakly fair execution of the idealized kernel terminates with its results at these functions of the
    arguments, the arguments unchanged. -/
theorem run : θ_run defs (onTc (τ := τ) (main (F := Ideal))) ⟨m, fun _ => 0, ρ⟩ (fun r => ∀ c : Dev nD,
      r.2.mem ((c.tc : Thread nD τ).loc main_v4)
        = attn (m ((c : Thread nD τ).loc main_arg1)) (flip (m ((c : Thread nD τ).loc main_arg2)))
      ∧ r.2.mem ((c.tc : Thread nD τ).loc main_v5)
        = mixed (attn (m ((c : Thread nD τ).loc main_arg1)) (flip (m ((c : Thread nD τ).loc main_arg2))))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (first m ρ c), (h c).2.1.trans (second m ρ c), (h c).2.2⟩)
    (Named.run (F := Ideal) m ρ)

end Cert.KernelIdeal.Values

end
-- ==== Proof.ReferenceRows.lean ====
/-
  The reference's two results are the attention weights and the mixed values.

  The reference transposes Wk, multiplies Wq by it, divides by the square root of the constant 4096, takes each
  row's maximum (a fold from -∞, then once more the maximum with -∞), subtracts it, exponentiates, sums each row
  from 0, divides, and multiplies the quotient by Wv. Stage by stage, at an entry (p, q): the quotient by the
  square root is the product with 1/64 (`score`), the row maximum is `top`, the exponential is `weight`, the row
  sum is `mass`, the quotient is `soft`, and the last product is `mix`.
-/
import proofs.«105991_j5059471475343_2_alg».proof.Proof.Gen.ReferenceIdeal.Read
import proofs.«105991_j5059471475343_2_alg».proof.Proof.AttentionRows
import proofs.«105991_j5059471475343_2_alg».proof.Proof.LibRowOps

noncomputable section

namespace Cert.ReferenceIdeal.Rows

open Cert.ReferenceIdeal Cert.ReferenceIdeal.Gen Cert.ReferenceIdeal.Read AttnRows
open Idealize.ShloMosaic Idealize.ShloMosaic.ValueIdx

variable (x1 x2 x3 : (⟨S4096x4096, .f32⟩ : BufTy).Contents (Elt Ideal))

/-! ## Index arithmetic of the stages at (p, q) -/

theorem lidx5 (p q k : Fin 4096) : lidx_main_v5 (ix2 p q) k = ix2 p k :=
  funext fun a => Fin.ext (by match a with | ⟨0, _⟩ => rfl | ⟨1, _⟩ => rfl)
theorem ridx5 (p q k : Fin 4096) : ridx_main_v5 (ix2 p q) k = ix2 k q :=
  funext fun a => Fin.ext (by match a with | ⟨0, _⟩ => rfl | ⟨1, _⟩ => rfl)
theorem lidx19 (p q k : Fin 4096) : lidx_main_v19 (ix2 p q) k = ix2 p k :=
  funext fun a => Fin.ext (by match a with | ⟨0, _⟩ => rfl | ⟨1, _⟩ => rfl)
theorem ridx19 (p q k : Fin 4096) : ridx_main_v19 (ix2 p q) k = ix2 k q :=
  funext fun a => Fin.ext (by match a with | ⟨0, _⟩ => rfl | ⟨1, _⟩ => rfl)
theorem idx12 (p q : Fin 4096) : idx_main_v12 (ix2 p q) = ix2 p (0 : Fin 1) :=
  funext fun a => Fin.ext (by match a with | ⟨0, _⟩ => rfl | ⟨1, _⟩ => rfl)
theorem idx11 (p : Fin 4096) (u : Fin 1) : idx_main_v11 (ix2 p u) = ix1 p :=
  funext fun a => Fin.ext (by match a with | ⟨0, _⟩ => rfl)
theorem idx17 (p q : Fin 4096) : idx_main_v17 (ix2 p q) = ix2 p (0 : Fin 1) :=
  funext fun a => Fin.ext (by match a with | ⟨0, _⟩ => rfl | ⟨1, _⟩ => rfl)
theorem idx16 (p : Fin 4096) (u : Fin 1) : idx_main_v16 (ix2 p u) = ix1 p :=
  funext fun a => Fin.ext (by match a with | ⟨0, _⟩ => rfl)
theorem idx15 (p k : Fin 4096) : idx_main_v15 (ix1 p) k = ix2 p k :=
  funext fun a => Fin.ext (by match a with | ⟨0, _⟩ => rfl | ⟨1, _⟩ => rfl)

/-! ## The stages -/

/-- The transposed third argument. -/
theorem transposed : val_main_v4 (F := Ideal) x2 = flip x2 := by
  funext i
  rw [val_main_v4_apply]
  exact congrArg x2 (funext fun a => Fin.ext (by match a with | ⟨0, _⟩ => rfl | ⟨1, _⟩ => rfl))

/-- The scaled scores: the quotient by the square root of 4096 is the product with 1/64. -/
theorem scaled (p q : Fin 4096) : val_main_v7 (F := Ideal) x1 x2 (ix2 p q) = score (row x1 p) (flip x2) q := by
  rw [val_main_v7_apply, val_main_v5_apply, val_main_v6_apply, val_main_v3_apply, val_main_cst_apply, transposed]
  simp only [Ideal.hostDivf_def, Ideal.hostUnary_sqrt_def, Ideal.ofBits_def]
  rw [div_sqrt_4096]
  unfold score
  refine congrArg (· * _) (Finset.sum_congr rfl fun k _ => ?_)
  rw [lidx5, ridx5]

/-- The row maximum, after the second maximum against -∞. -/
theorem rowTop (p : Fin 4096) : val_main_v10 (F := Ideal) x1 x2 (ix1 p) = top (row x1 p) (flip x2) := by
  rw [val_main_v10_apply, val_main_v9_apply, val_main_cst_1_apply]
  unfold val_main_v8
  refine (congrArg (FloatOps.maximumf _) (Gcn.Lib.hostRowMax_apply (val_main_v7 (F := Ideal) x1 x2) (val_main_cst_0 (F := Ideal))
    reducesTo_S4096x4096_S4096_d1 (by decide) h_S_ p)).trans ?_
  rw [val_main_cst_0_apply]
  simp only [Ideal.maximumf_def, Ideal.ofBits_def, Gcn.Lib.ofBits_neg_inf_f32, max_bot_left]
  unfold top
  exact congrArg (fun f => (Finset.univ : Finset (Fin 4096)).fold max ⊥ f) (funext fun k => scaled x1 x2 p k)

/-- The exponentials. -/
theorem expo (p q : Fin 4096) : val_main_v14 (F := Ideal) x1 x2 (ix2 p q) = weight (row x1 p) (flip x2) q := by
  rw [val_main_v14_apply, val_main_v13_apply, val_main_v12_apply, idx12, val_main_v11_apply, idx11, rowTop, scaled]
  simp only [Ideal.hostUnary_exp_def, Ideal.subf_def]
  rfl

/-- The row sums. -/
theorem rowMass (p : Fin 4096) : val_main_v15 (F := Ideal) x1 x2 (ix1 p) = mass (row x1 p) (flip x2) := by
  rw [val_main_v15_apply, val_main_cst_2_apply]
  simp only [Ideal.ofBits_def, Ideal.ofBits_zero_f32, zero_add]
  unfold mass
  refine Finset.sum_congr rfl fun k _ => ?_
  rw [idx15, expo]

/-- THE FIRST RESULT: the attention weights of the second argument against the transposed third. -/
theorem first : val_main_v18 (F := Ideal) x1 x2 = attn x1 (flip x2) := by
  funext i
  obtain ⟨p, q, rfl⟩ : ∃ (p : Fin 4096) (q : Fin 4096), i = ix2 p q := ⟨i 0, i 1, eq_ix2 i⟩
  rw [val_main_v18_apply, val_main_v17_apply, idx17, val_main_v16_apply, idx16, rowMass, expo]
  simp only [Ideal.hostDivf_def]
  rfl

/-- THE SECOND RESULT: the weights times the fourth argument. -/
theorem second : val_main_v19 (F := Ideal) x1 x2 x3 = mixed (attn x1 (flip x2)) x3 := by
  funext i
  obtain ⟨p, q, rfl⟩ : ∃ (p : Fin 4096) (q : Fin 4096), i = ix2 p q := ⟨i 0, i 1, eq_ix2 i⟩
  rw [val_main_v19_apply, first]
  unfold mixed mix
  refine Finset.sum_congr rfl fun k _ => ?_
  rw [lidx19, ridx19]

end Cert.ReferenceIdeal.Rows

end
-- ==== Proof.lean ====
/-
  Scaled-dot-product attention over the weight matrices themselves: attn = softmax of (Wq · Wkᵀ) / √4096 along each
  row, and sftmax = attn · Wv, for square matrices of extent 4096; the first argument is accepted and unused.

  The kernel rounds Wq, Wk, Wv to bf16, transposes Wk on the host, and runs two pipelined regions over 32 tiles of
  128 rows: the first multiplies a tile of Wq by the whole transposed Wk into a zero accumulator, scales by 2⁻⁶ and
  normalises each row; the second multiplies a tile of the weights by the whole Wv. The reference does the same on
  the host, dividing by the square root of 4096 and taking the row maximum once more against -∞.

  On the extended reals the two agree entry by entry. Rounding is the identity; a matrix product into zero and the
  host's contraction are the same sum over 4096 terms; dividing by √4096 = 64 is multiplying by 1/64 at every
  extended real; the extra maximum against ⊥ changes nothing; and every row of either result depends only on the
  same row of the left operand, so the 32 row tiles assemble into the whole-array functions `attn` and `mixed`
  (Proof/AttentionRows.lean). No step uses finiteness of the inputs.

  The three programs terminate without fault and leave their arguments unchanged; the idealization rewrote nothing,
  so its preservation claim is `True`.
-/
import proofs.«105991_j5059471475343_2_alg».proof.Defs
import proofs.«105991_j5059471475343_2_alg».proof.Proof.Gen.Kernel
import proofs.«105991_j5059471475343_2_alg».proof.Proof.Gen.Kernel.Skeleton
import proofs.«105991_j5059471475343_2_alg».proof.Proof.Gen.Kernel.Launch
import proofs.«105991_j5059471475343_2_alg».proof.Proof.Gen.Kernel.Points
import proofs.«105991_j5059471475343_2_alg».proof.Proof.Gen.Kernel.Frame
import proofs.«105991_j5059471475343_2_alg».proof.Proof.Gen.KernelIdeal
import proofs.«105991_j5059471475343_2_alg».proof.Proof.Gen.KernelIdeal.Skeleton
import proofs.«105991_j5059471475343_2_alg».proof.Proof.Gen.KernelIdeal.Launch
import proofs.«105991_j5059471475343_2_alg».proof.Proof.Gen.KernelIdeal.Points
import proofs.«105991_j5059471475343_2_alg».proof.Proof.Gen.KernelIdeal.Frame
import proofs.«105991_j5059471475343_2_alg».proof.Proof.Gen.ReferenceIdeal
import proofs.«105991_j5059471475343_2_alg».proof.Proof.Gen.Pre_finite_inputs
import proofs.«105991_j5059471475343_2_alg».proof.Proof.Gen.ReferenceIdeal.Run
import proofs.«105991_j5059471475343_2_alg».proof.Proof.Gen.ReferenceIdeal.Read
import proofs.«105991_j5059471475343_2_alg».proof.Proof.KernelValues
import proofs.«105991_j5059471475343_2_alg».proof.Proof.ReferenceRows
import Idealize.ShloMosaic.Adequacy
import Idealize.ShloMosaic.Init

noncomputable section

namespace Cert.Proof

open Idealize.ShloMosaic Idealize.SL.Sem

/-- The word-level kernel terminates without fault and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments, both idealized programs end with the attention weights and the mixed
    values of the arguments. -/
theorem algebraic : Cert.algebraic_KernelIdeal_ReferenceIdeal := by
  intro m ρ m' ρ' _ hagree
  refine ⟨_, _, Cert.KernelIdeal.Values.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.ReferenceIdeal.Rows.first, (hagree c).2.1, (hagree c).2.2.1]
  · rw [Cert.ReferenceIdeal.Read.val_main_v19_eq, Cert.ReferenceIdeal.Rows.second, (hagree c).2.1, (hagree c).2.2.1,
      (hagree c).2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
